-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x500 : Shape := ⟨2, ![5000, 500]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 117
  | .vmem => 15
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x40, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x40, .f32⟩
  | .hbm, ⟨107, _⟩ => ⟨S1700000x1, .f32⟩
  | .hbm, ⟨108, _⟩ => ⟨S1700000x40, .f32⟩
  | .hbm, ⟨109, _⟩ => ⟨S1700000x40, .f32⟩
  | .hbm, ⟨110, _⟩ => ⟨S_, .f32⟩
  | .hbm, ⟨111, _⟩ => ⟨S100000x40, .f32⟩
  | .hbm, ⟨112, _⟩ => ⟨S1700000x1, .i32⟩
  | .hbm, ⟨113, _⟩ => ⟨S100000x40, .f32⟩
  | .hbm, ⟨114, _⟩ => ⟨S1x40, .f32⟩
  | .hbm, ⟨115, _⟩ => ⟨S100000x40, .f32⟩
  | .hbm, ⟨116, _⟩ => ⟨S100000x40, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x500_S500x128_S5000x128_1_0_0_1_n_n_wf : DotDims.WF S5000x500 S500x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 117
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x40, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x40, .f32⟩
  | .hbm, ⟨107, _⟩ => ⟨S1700000x1, .f32⟩
  | .hbm, ⟨108, _⟩ => ⟨S1700000x40, .f32⟩
  | .hbm, ⟨109, _⟩ => ⟨S1700000x40, .f32⟩
  | .hbm, ⟨110, _⟩ => ⟨S_, .f32⟩
  | .hbm, ⟨111, _⟩ => ⟨S100000x40, .f32⟩
  | .hbm, ⟨112, _⟩ => ⟨S1700000x1, .i32⟩
  | .hbm, ⟨113, _⟩ => ⟨S100000x40, .f32⟩
  | .hbm, ⟨114, _⟩ => ⟨S1x40, .f32⟩
  | .hbm, ⟨115, _⟩ => ⟨S100000x40, .f32⟩
  | .hbm, ⟨116, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named.

  The program is eleven segments: stretches of host operations and three pipelined regions.  The buffer contents at the
  segment boundaries are a fold from the launch memory (W0 … W11 of the generated frame module); the run below is that
  module's frame run with one more conjunct read off the last boundary: the result buffer ends at W11's contents.
-/
import proofs.«129346_j59407987638622_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays as launched. -/
theorem run : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Run

end
-- ==== Proof.Stages.lean ====
/-
  The stages of a three-layer graph convolution, as whole-array functions.

  A graph on 100000 nodes is given by 1600000 directed edges (row 0 of the edge list: the sources, row 1: the
  targets); every node also sends a message to itself, so there are 1700000 messages.  With deg(v) the number of
  messages that arrive at v and dinv(v) = deg(v)^(-1/2) (0 where no message arrives), message j from s(j) to d(j)
  has weight w(j) = dinv(s(j)) · dinv(d(j)).  One layer maps node features h : [100000, C] to

        agg(h)(v, q) = Σ_{j : d(j) = v} h(s(j), q) · w(j)  +  b(q),

  and the network is  agg₄₀( relu(agg₁₂₈( relu(agg₁₂₈(x · W1)) · W2 )) · W3 ).

  Each definition below is one stage of that computation, spelt with the host operations the reference program applies
  (its shape records are the reference's): the message ends, the weights, a dense product, a layer's aggregation, the
  rectifier, and their composition `out`.  Both programs are shown to compute `out` of their arguments; the only place
  where they differ is how the three dense products are evaluated.
-/
import proofs.«129346_j59407987638622_1_alg».proof.Proof.Gen.ReferenceIdeal
import Idealize.ShloMosaic.PureOps

noncomputable section

namespace Cert.Gcn

open Idealize.ShloMosaic Cert.ReferenceIdeal Cert.ReferenceIdeal.Gen

variable {F : FTy → Type} [FloatOps F]

/-- The sources of the 1700000 messages: row 0 of the edge list, then every node once. -/
def srcIdx (e : (BufTy.Contents (Elt F) (⟨S2x1600000, .i32⟩ : BufTy))) : (BufTy.Contents (Elt F) (⟨S1700000, .i32⟩ : BufTy)) :=
  concatenate S1700000 0 [⟨S1600000, (shapeCast S1600000 (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the messages: row 1 of the edge list, then every node once. -/
def dstIdx (e : (BufTy.Contents (Elt F) (⟨S2x1600000, .i32⟩ : BufTy))) : (BufTy.Contents (Elt F) (⟨S1700000, .i32⟩ : BufTy)) :=
  concatenate S1700000 0 [⟨S1600000, (shapeCast S1600000 (extractStridedSlice S1x1600000 ![1, 0] e slices_S2x1600000_S1x1600000_1_0) shapeCasts_S1x1600000_S1600000)⟩, ⟨S100000, (iotaInDim S100000 32 0)⟩] concatenates_S1600000_S100000_S1700000_d0

/-- A node number below zero counts from the end: jnp's index normalisation, a column of start indices. -/
def wrapCol (s : (BufTy.Contents (Elt F) (⟨S1700000, .i32⟩ : BufTy))) : (BufTy.Contents (Elt F) (⟨S1700000x1, .i32⟩ : BufTy)) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The number of messages arriving at each node. -/
def degree (d : (BufTy.Contents (Elt F) (⟨S1700000, .i32⟩ : BufTy))) : (BufTy.Contents (Elt F) (⟨S100000, .f32⟩ : BufTy)) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- deg^(-1/2) where deg > 0, else 0 (the degree floored at 1e-12 under the root). -/
def invSqrtDeg (d : (BufTy.Contents (Elt F) (⟨S1700000, .i32⟩ : BufTy))) : (BufTy.Contents (Elt F) (⟨S100000, .f32⟩ : BufTy)) :=
  select (cmpf (F := F) .ogt (degree d) (broadcastInDim S100000 ![] bcast_S_S100000 (constant (F := F) S_ .f32 0x00000000#32)))
    (Host.rsqrt (maximumf (degree d) (broadcastInDim S100000 ![] bcast_S_S100000 (constant (F := F) S_ .f32 0x2B8CBCCC#32))))
    (broadcastInDim S100000 ![] bcast_S_S100000 (id (constant (F := F) S_ .f32 0x00000000#32)))

/-- The weight of each message from the guarded inverse square roots `r`: r(source) · r(target). -/
def weightsOf (r : (BufTy.Contents (Elt F) (⟨S100000, .f32⟩ : BufTy))) (s d : (BufTy.Contents (Elt F) (⟨S1700000, .i32⟩ : BufTy))) :
    (BufTy.Contents (Elt F) (⟨S1700000, .f32⟩ : BufTy)) :=
  mulf (Host.gather gather_S100000_S1700000x1_S1700000_n_0_n_n_0_1_1 r (wrapCol (F := F) s))
    (Host.gather gather_S100000_S1700000x1_S1700000_n_0_n_n_0_1_1 r (wrapCol (F := F) d))

/-- The weight of each message: dinv(source) · dinv(target). -/
def weights (s d : (BufTy.Contents (Elt F) (⟨S1700000, .i32⟩ : BufTy))) : (BufTy.Contents (Elt F) (⟨S1700000, .f32⟩ : BufTy)) :=
  weightsOf (F := F) (invSqrtDeg (F := F) d) s d

/-- The three dense products, as the host computes them. -/
def dense1 (x : (BufTy.Contents (Elt F) (⟨S100000x500, .f32⟩ : BufTy))) (w : (BufTy.Contents (Elt F) (⟨S500x128, .f32⟩ : BufTy))) : (BufTy.Contents (Elt F) (⟨S100000x128, .f32⟩ : BufTy)) :=
  Host.dotGeneral dot_S100000x500_S500x128_S100000x128_1_0_0_1_n_n none x w
def dense2 (x : (BufTy.Contents (Elt F) (⟨S100000x128, .f32⟩ : BufTy))) (w : (BufTy.Contents (Elt F) (⟨S128x128, .f32⟩ : BufTy))) : (BufTy.Contents (Elt F) (⟨S100000x128, .f32⟩ : BufTy)) :=
  Host.dotGeneral dot_S100000x128_S128x128_S100000x128_1_0_0_1_n_n none x w
def dense3 (x : (BufTy.Contents (Elt F) (⟨S100000x128, .f32⟩ : BufTy))) (w : (BufTy.Contents (Elt F) (⟨S128x40, .f32⟩ : BufTy))) : (BufTy.Contents (Elt F) (⟨S100000x40, .f32⟩ : BufTy)) :=
  Host.dotGeneral dot_S100000x128_S128x40_S100000x40_1_0_0_1_n_n none x w

/-- One layer's aggregation at 128 features: gather the sources' rows, weigh them, add them up at the targets,
    add the bias. -/
def agg128 (h : (BufTy.Contents (Elt F) (⟨S100000x128, .f32⟩ : BufTy))) (b : (BufTy.Contents (Elt F) (⟨S128, .f32⟩ : BufTy))) (s d : (BufTy.Contents (Elt F) (⟨S1700000, .i32⟩ : BufTy))) (w : (BufTy.Contents (Elt F) (⟨S1700000, .f32⟩ : BufTy))) :
    (BufTy.Contents (Elt F) (⟨S100000x128, .f32⟩ : BufTy)) :=
  addf (Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 d)
      (mulf (Host.gather gather_S100000x128_S1700000x1_S1700000x128_1_0_n_n_0_1_1128 h (wrapCol (F := F) s))
        (broadcastInDim S1700000x128 ![0, 1] bcast_S1700000x1_S1700000x128_0_1 (broadcastInDim S1700000x1 ![0] bcast_S1700000_S1700000x1_0 w))))
    (broadcastInDim S100000x128 ![0, 1] bcast_S1x128_S100000x128_0_1 (broadcastInDim S1x128 ![1] bcast_S128_S1x128_1 b))

/-- The same at 40 features. -/
def agg40 (h : (BufTy.Contents (Elt F) (⟨S100000x40, .f32⟩ : BufTy))) (b : (BufTy.Contents (Elt F) (⟨S40, .f32⟩ : BufTy))) (s d : (BufTy.Contents (Elt F) (⟨S1700000, .i32⟩ : BufTy))) (w : (BufTy.Contents (Elt F) (⟨S1700000, .f32⟩ : BufTy))) :
    (BufTy.Contents (Elt F) (⟨S100000x40, .f32⟩ : BufTy)) :=
  addf (Host.scatterAdd scatter_S100000x40_S1700000x1_S1700000x40_1_0_0_1
      (broadcastInDim S100000x40 ![] bcast_S_S100000x40 (constant (F := F) S_ .f32 0x00000000#32))
      (broadcastInDim S1700000x1 ![0] bcast_S1700000_S1700000x1_0 d)
      (mulf (Host.gather gather_S100000x40_S1700000x1_S1700000x40_1_0_n_n_0_1_140 h (wrapCol (F := F) s))
        (broadcastInDim S1700000x40 ![0, 1] bcast_S1700000x1_S1700000x40_0_1 (broadcastInDim S1700000x1 ![0] bcast_S1700000_S1700000x1_0 w))))
    (broadcastInDim S100000x40 ![0, 1] bcast_S1x40_S100000x40_0_1 (broadcastInDim S1x40 ![1] bcast_S40_S1x40_1 b))

/-- max(h, 0), entry by entry. -/
def relu128 (h : (BufTy.Contents (Elt F) (⟨S100000x128, .f32⟩ : BufTy))) : (BufTy.Contents (Elt F) (⟨S100000x128, .f32⟩ : BufTy)) :=
  maximumf h (broadcastInDim S100000x128 ![] bcast_S_S100000x128 (constant (F := F) S_ .f32 0x00000000#32))

/-- The whole network, given the three dense products as functions: the only part the two programs evaluate differently. -/
def outWith (p1 : (BufTy.Contents (Elt F) (⟨S100000x500, .f32⟩ : BufTy)) → (BufTy.Contents (Elt F) (⟨S500x128, .f32⟩ : BufTy)) → (BufTy.Contents (Elt F) (⟨S100000x128, .f32⟩ : BufTy)))
    (p2 : (BufTy.Contents (Elt F) (⟨S100000x128, .f32⟩ : BufTy)) → (BufTy.Contents (Elt F) (⟨S128x128, .f32⟩ : BufTy)) → (BufTy.Contents (Elt F) (⟨S100000x128, .f32⟩ : BufTy)))
    (p3 : (BufTy.Contents (Elt F) (⟨S100000x128, .f32⟩ : BufTy)) → (BufTy.Contents (Elt F) (⟨S128x40, .f32⟩ : BufTy)) → (BufTy.Contents (Elt F) (⟨S100000x40, .f32⟩ : BufTy)))
    (x : (BufTy.Contents (Elt F) (⟨S100000x500, .f32⟩ : BufTy))) (e : (BufTy.Contents (Elt F) (⟨S2x1600000, .i32⟩ : BufTy))) (w1 : (BufTy.Contents (Elt F) (⟨S500x128, .f32⟩ : BufTy))) (b1 : (BufTy.Contents (Elt F) (⟨S128, .f32⟩ : BufTy)))
    (w2 : (BufTy.Contents (Elt F) (⟨S128x128, .f32⟩ : BufTy))) (b2 : (BufTy.Contents (Elt F) (⟨S128, .f32⟩ : BufTy))) (w3 : (BufTy.Contents (Elt F) (⟨S128x40, .f32⟩ : BufTy))) (b3 : (BufTy.Contents (Elt F) (⟨S40, .f32⟩ : BufTy))) : (BufTy.Contents (Elt F) (⟨S100000x40, .f32⟩ : BufTy)) :=
  agg40 (F := F) (p3 (relu128 (F := F) (agg128 (F := F) (p2 (relu128 (F := F) (agg128 (F := F) (p1 x w1) b1 (srcIdx (F := F) e) (dstIdx (F := F) e)
      (weights (F := F) (srcIdx (F := F) e) (dstIdx (F := F) e)))) w2) b2 (srcIdx (F := F) e) (dstIdx (F := F) e)
      (weights (F := F) (srcIdx (F := F) e) (dstIdx (F := F) e)))) w3) b3 (srcIdx (F := F) e) (dstIdx (F := F) e)
      (weights (F := F) (srcIdx (F := F) e) (dstIdx (F := F) e))

/-- The network with the host's dense products: what the reference computes. -/
def out (x : (BufTy.Contents (Elt F) (⟨S100000x500, .f32⟩ : BufTy))) (e : (BufTy.Contents (Elt F) (⟨S2x1600000, .i32⟩ : BufTy))) (w1 : (BufTy.Contents (Elt F) (⟨S500x128, .f32⟩ : BufTy))) (b1 : (BufTy.Contents (Elt F) (⟨S128, .f32⟩ : BufTy)))
    (w2 : (BufTy.Contents (Elt F) (⟨S128x128, .f32⟩ : BufTy))) (b2 : (BufTy.Contents (Elt F) (⟨S128, .f32⟩ : BufTy))) (w3 : (BufTy.Contents (Elt F) (⟨S128x40, .f32⟩ : BufTy))) (b3 : (BufTy.Contents (Elt F) (⟨S40, .f32⟩ : BufTy))) : (BufTy.Contents (Elt F) (⟨S100000x40, .f32⟩ : BufTy)) :=
  outWith (F := F) (dense1 (F := F)) (dense2 (F := F)) (dense3 (F := F)) x e w1 b1 w2 b2 w3 b3

end Cert.Gcn

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.LibMatProd.lean ====
/-
  The matrix product of two arrays of extended reals, entry by entry, and the host's `dot_general` as that product.

  For l : [R, K] and r : [K, C] the product is the array whose entry (p, q) is Σ_{k < K} l(p, k) · r(k, q).  Sums and
  products of extended reals are taken as they come (no finiteness is needed: nothing is rearranged beyond the order
  of a finite sum, and addition of extended reals is commutative and associative).  For any extents R, K, C and operand
  formats; beside the library it imports only the host product read at one entry (LibHostDot).
-/
import proofs.«129346_j59407987638622_1_alg».proof.Proof.LibHostDot
import Idealize.ShloMosaic.Lib.ValueIdx

noncomputable section

namespace Cert.LibMatProd

open Idealize.ShloMosaic Idealize.ShloMosaic.ValueIdx

/-- The product of an [R, K] and a [K, C] array: entry (p, q) is Σ_k l(p, k) · r(k, q). -/
def matProd {R K C : Nat} {φ₁ φ₂ : FTy} (l : FVec Ideal ⟨2, ![R, K]⟩ φ₁) (r : FVec Ideal ⟨2, ![K, C]⟩ φ₂) :
    FVec Ideal ⟨2, ![R, C]⟩ .f32 :=
  fun i => ∑ k : Fin K, l (ix2 (n0 := R) (n1 := K) (i 0) k) * r (ix2 (n0 := K) (n1 := C) k (i 1))

/-- Its entry at (p, q). -/
theorem matProd_ix2 {R K C : Nat} {φ₁ φ₂ : FTy} (l : FVec Ideal ⟨2, ![R, K]⟩ φ₁) (r : FVec Ideal ⟨2, ![K, C]⟩ φ₂)
    (p : Fin R) (q : Fin C) : matProd l r (ix2 p q) = ∑ k : Fin K, l (ix2 p k) * r (ix2 k q) := rfl

/-- The host's `dot_general` that contracts the left operand's axis 1 with the right operand's axis 0 is the matrix
    product. -/
theorem dotGeneral_eq {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) :
    Host.dotGeneral D prec l r = matProd l r := by
  funext i
  obtain ⟨p, q, rfl⟩ : ∃ (p : Fin R) (q : Fin C), i = ix2 p q := ⟨i 0, i 1, eq_ix2 i⟩
  exact Cert.LibHostDot.dotGeneral_ix2 D hlc hrc hr hs hl0 hr1 prec l r p q

end Cert.LibMatProd

end
-- ==== Proof.Dense0.lean ====
/-
  The first dense product as the kernel's pipeline leaves it.

  The pipeline runs over 20 grid points; at point t the body loads rows 5000·t … 5000·t + 4999 of the left array (a
  [5000, 500] block), the whole [500, 128] right array, and stores a [5000, 128] block whose entry (p, q) is
  Σ_{k < 500} x(5000·t + p, k) · w(k, q): the rounding of the operands to bf16 is the identity on extended reals, and a
  matrix product into the zero accumulator is the plain sum.  That block is written back to rows 5000·t … of the
  result, and the 20 blocks tile the result's 100000 rows: the result array ends as the matrix product of the two arrays
  the region found, which is the host's `dot_general` of them.
-/
import proofs.«129346_j59407987638622_1_alg».proof.Proof.Gen.KernelIdeal.Frame
import proofs.«129346_j59407987638622_1_alg».proof.Proof.LibMatmulZero
import proofs.«129346_j59407987638622_1_alg».proof.Proof.LibMatProd
import proofs.«129346_j59407987638622_1_alg».proof.Proof.Stages
import Idealize.ShloMosaic.Lib.Pipeline.Value
import Idealize.ShloMosaic.Lib.ValueIdx
import Idealize.ShloMosaic.PureOps.Ideal.Laws

noncomputable section

namespace Cert.KernelIdeal.Dense0

open Cert.KernelIdeal Cert.KernelIdeal.Gen Idealize.ShloMosaic Idealize.ShloMosaic.TcCoe Idealize.ShloMosaic.ValueIdx Idealize.SL.Sem
open Cert.LibMatProd (matProd matProd_ix2)

/-- The left operand's row index and the right operand's column index are the result's. -/
theorem lhs_row : ∀ (i : S5000x128.Idx) (c : dot_S5000x500_S500x128_S5000x128_1_0_0_1_n_n.contr.Idx),
    (dot_S5000x500_S500x128_S5000x128_1_0_0_1_n_n.lhsIdx i c 0).val = (i 0).val := fun i c => by
  unfold DotDims.lhsIdx
  rw [dif_neg (show ¬(0 : Fin _) ∈ dot_S5000x500_S500x128_S5000x128_1_0_0_1_n_n.lhsBatch by decide),
    dif_pos (show (0 : Fin _) ∈ dot_S5000x500_S500x128_S5000x128_1_0_0_1_n_n.lhsNonContracting by decide)]
  rfl
theorem rhs_col : ∀ (i : S5000x128.Idx) (c : dot_S5000x500_S500x128_S5000x128_1_0_0_1_n_n.contr.Idx),
    (dot_S5000x500_S500x128_S5000x128_1_0_0_1_n_n.rhsIdx i c 1).val = (i 1).val := fun i c => by
  unfold DotDims.rhsIdx
  rw [dif_neg (show ¬(1 : Fin _) ∈ dot_S5000x500_S500x128_S5000x128_1_0_0_1_n_n.rhsBatch by decide),
    dif_pos (show (1 : Fin _) ∈ dot_S5000x500_S500x128_S5000x128_1_0_0_1_n_n.rhsNonContracting by decide)]
  rfl

/-- The body's stored value at entry (p, q) of its block: Σ_k x(p, k) · w(k, q) of the two loaded blocks. -/
theorem payload_apply (x0 : Vec Ideal S5000x500 .f32) (x1 : Vec Ideal S500x128 .f32) (p : Fin 5000) (q : Fin 128) :
    k0_pay1 x0 x1 (ix2 p q) = ∑ k : Fin 500, x0 (ix2 p k) * x1 (ix2 k q) := by
  unfold k0_pay1
  refine (Cert.LibMatmulZero.matmul_zero_ix2 dot_S5000x500_S500x128_S5000x128_1_0_0_1_n_n rfl rfl rfl rfl lhs_row rhs_col none _ _ p q).trans ?_
  rfl

theorem origin : (![0, 0] : Fin 2 → Nat) = fun _ => 0 := funext fun a => by fin_cases a <;> rfl

/-- The printed index maps over the grid: the left and result blocks are block-row t, the right block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the matrix product of the two arrays as the region finds them. -/
theorem flushed_eq (c : Dev nD) (t : Fin cfg0.N) :
    (dat0 V c).flushed 2 t = ((cfg0.win 2).blk t).view.read (Elt Ideal)
      (matProd (R := 100000) (K := 500) (C := 128) (φ₁ := .f32) (φ₂ := .f32) (V c main_arg0) (V c main_arg2)) := by
  show (cfg0.win 2).cut (grid0.coords t) ((dat0 V c).after 2 t) = _
  rw [after0_2]
  unfold out0_2
  rw [View.canon_unit_zero origin]
  simp only [View.ld_unit_zero (S := S5000x500) origin, View.ld_unit_zero (S := S500x128) origin]
  obtain ⟨e0, e1, e2, e3, e4, e5⟩ := idx_facts t
  funext (j : S5000x128.Idx)
  obtain ⟨p, q, rfl⟩ : ∃ (p : Fin 5000) (q : Fin 128), j = ix2 p q := ⟨j 0, j 1, eq_ix2 j⟩
  show k0_pay1 (iblk0 V c 0 t) (iblk0 V c 1 t) (ix2 p q)
    = matProd (R := 100000) (K := 500) (C := 128) (φ₁ := .f32) (φ₂ := .f32) (V c main_arg0) (V c main_arg2) (((cfg0.win 2).blk t).view.emb (ix2 p q))
  refine (payload_apply (iblk0 V c 0 t) (iblk0 V c 1 t) p q).trans ?_
  have hp : (p : Nat) < 5000 := p.isLt
  have ht : (t : Nat) < 20 := lt_of_lt_of_eq t.isLt N_0
  have hrow : t.val * 5000 + p.val < 100000 := by omega
  have hemb : ((cfg0.win 2).blk t).view.emb (ix2 p q) = ix2 (n0 := 100000) (n1 := 128) ⟨t.val * 5000 + p.val, hrow⟩ q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb, matProd_ix2]
  refine Finset.sum_congr rfl fun k _ => ?_
  have hx : iblk0 V c 0 t (ix2 p k) = V c main_arg0 (ix2 (n0 := 100000) (n1 := 500) ⟨t.val * 5000 + p.val, hrow⟩ k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 500 + 1 * k.val = k.val; omega
  have hw : iblk0 V c 1 t (ix2 k q) = V c main_arg2 (ix2 (n0 := 500) (n1 := 128) k q) := by
    show V c main_arg2 (((cfg0.win 1).blk t).view.emb (ix2 k q)) = _
    refine congrArg (V c main_arg2) ?_
    funext a; apply Fin.ext
    match a with
    | ⟨0, _⟩ => show win0_1.index t (0 : Fin 2) * 500 + 1 * k.val = k.val; omega
    | ⟨1, _⟩ => show win0_1.index t (1 : Fin 2) * 128 + 1 * q.val = q.val; omega
  rw [hx, hw]

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the result lies in the block of point r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- The result array after the region is the matrix product of the two arrays the region found. -/
theorem arr_matProd (c : Dev nD) : (dat0 V c).arrAt 2 cfg0.N
    = matProd (R := 100000) (K := 500) (C := 128) (φ₁ := .f32) (φ₂ := .f32) (V c main_arg0) (V c main_arg2) :=
  (dat0 V c).arrAt_eq_of_cover 2 _ (fun t _ => flushed_eq V c t) covered

/-- The reference's `dot_general` of the same two arrays is that product. -/
theorem dense_matProd (x : FVec Ideal ⟨2, ![100000, 500]⟩ .f32) (w : FVec Ideal ⟨2, ![500, 128]⟩ .f32) :
    Cert.Gcn.dense1 (F := Ideal) x w = matProd x w := by
  unfold Cert.Gcn.dense1
  refine Cert.LibMatProd.dotGeneral_eq _ rfl rfl rfl rfl (fun i c => ?_) (fun i c => ?_) none x w
  · unfold DotDims.lhsIdx
    rw [dif_neg (show ¬(0 : Fin _) ∈ Cert.ReferenceIdeal.dot_S100000x500_S500x128_S100000x128_1_0_0_1_n_n.lhsBatch by decide),
      dif_pos (show (0 : Fin _) ∈ Cert.ReferenceIdeal.dot_S100000x500_S500x128_S100000x128_1_0_0_1_n_n.lhsNonContracting by decide)]
    rfl
  · unfold DotDims.rhsIdx
    rw [dif_neg (show ¬(1 : Fin _) ∈ Cert.ReferenceIdeal.dot_S100000x500_S500x128_S100000x128_1_0_0_1_n_n.rhsBatch by decide),
      dif_pos (show (1 : Fin _) ∈ Cert.ReferenceIdeal.dot_S100000x500_S500x128_S100000x128_1_0_0_1_n_n.rhsNonContracting by decide)]
    rfl

/-- So the region's result array is the reference's dense stage of the two arrays the region found. -/
theorem arr_dense (c : Dev nD) : (dat0 V c).arrAt 2 cfg0.N = Cert.Gcn.dense1 (F := Ideal) (V c main_arg0) (V c main_arg2) :=
  (arr_matProd V c).trans (dense_matProd _ _).symm

end Cert.KernelIdeal.Dense0

end
-- ==== Proof.Dense1.lean ====
/-
  The second dense product as the kernel's pipeline leaves it.

  The pipeline runs over 20 grid points; at point t the body loads rows 5000·t … 5000·t + 4999 of the left array (a
  [5000, 128] block), the whole [128, 128] right array, and stores a [5000, 128] block whose entry (p, q) is
  Σ_{k < 128} x(5000·t + p, k) · w(k, q): the same-shape cast of the left block and the rounding of the operands to bf16 are the identity on extended reals, and a
  matrix product into the zero accumulator is the plain sum.  That block is written back to rows 5000·t … of the
  result, and the 20 blocks tile the result's 100000 rows: the result array ends as the matrix product of the two arrays
  the region found, which is the host's `dot_general` of them.
-/
import proofs.«129346_j59407987638622_1_alg».proof.Proof.Gen.KernelIdeal.Frame
import proofs.«129346_j59407987638622_1_alg».proof.Proof.LibMatmulZero
import proofs.«129346_j59407987638622_1_alg».proof.Proof.LibMatProd
import proofs.«129346_j59407987638622_1_alg».proof.Proof.Stages
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.ShloMosaic.ValueIdx Idealize.SL.Sem
open Cert.LibMatProd (matProd matProd_ix2)

/-- The left operand's row index and the right operand's column index are the result's. -/
theorem lhs_row : ∀ (i : S5000x128.Idx) (c : dot_S5000x128_S128x128_S5000x128_1_0_0_1_n_n.contr.Idx),
    (dot_S5000x128_S128x128_S5000x128_1_0_0_1_n_n.lhsIdx i c 0).val = (i 0).val := fun i c => by
  unfold DotDims.lhsIdx
  rw [dif_neg (show ¬(0 : Fin _) ∈ dot_S5000x128_S128x128_S5000x128_1_0_0_1_n_n.lhsBatch by decide),
    dif_pos (show (0 : Fin _) ∈ dot_S5000x128_S128x128_S5000x128_1_0_0_1_n_n.lhsNonContracting by decide)]
  rfl
theorem rhs_col : ∀ (i : S5000x128.Idx) (c : dot_S5000x128_S128x128_S5000x128_1_0_0_1_n_n.contr.Idx),
    (dot_S5000x128_S128x128_S5000x128_1_0_0_1_n_n.rhsIdx i c 1).val = (i 1).val := fun i c => by
  unfold DotDims.rhsIdx
  rw [dif_neg (show ¬(1 : Fin _) ∈ dot_S5000x128_S128x128_S5000x128_1_0_0_1_n_n.rhsBatch by decide),
    dif_pos (show (1 : Fin _) ∈ dot_S5000x128_S128x128_S5000x128_1_0_0_1_n_n.rhsNonContracting by decide)]
  rfl

/-- The body's stored value at entry (p, q) of its block: Σ_k x(p, k) · w(k, q) of the two loaded blocks. -/
theorem payload_apply (x0 : Vec Ideal S5000x128 .f32) (x1 : Vec Ideal S128x128 .f32) (p : Fin 5000) (q : Fin 128) :
    k1_pay1 x0 x1 (ix2 p q) = ∑ k : Fin 128, x0 (ix2 p k) * x1 (ix2 k q) := by
  unfold k1_pay1
  refine (Cert.LibMatmulZero.matmul_zero_ix2 dot_S5000x128_S128x128_S5000x128_1_0_0_1_n_n rfl rfl rfl rfl lhs_row rhs_col none _ _ p q).trans ?_
  refine Finset.sum_congr rfl fun k _ => ?_
  show shapeCast S5000x128 x0 shapeCasts_S5000x128_S5000x128 (ix2 p k) * x1 (ix2 k q) = x0 (ix2 p k) * x1 (ix2 k q)
  rw [shapeCast_self]

theorem origin : (![0, 0] : Fin 2 → Nat) = fun _ => 0 := funext fun a => by fin_cases a <;> rfl

/-- The printed index maps over the grid: the left and result blocks are block-row t, the right block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the matrix product of the two arrays as the region finds them. -/
theorem flushed_eq (c : Dev nD) (t : Fin cfg1.N) :
    (dat1 V c).flushed 2 t = ((cfg1.win 2).blk t).view.read (Elt Ideal)
      (matProd (R := 100000) (K := 128) (C := 128) (φ₁ := .f32) (φ₂ := .f32) (V c main_v49) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := idx_facts t
  funext (j : S5000x128.Idx)
  obtain ⟨p, q, rfl⟩ : ∃ (p : Fin 5000) (q : Fin 128), j = ix2 p q := ⟨j 0, j 1, eq_ix2 j⟩
  show k1_pay1 (iblk1 V c 0 t) (iblk1 V c 1 t) (ix2 p q)
    = matProd (R := 100000) (K := 128) (C := 128) (φ₁ := .f32) (φ₂ := .f32) (V c main_v49) (V c main_arg4) (((cfg1.win 2).blk t).view.emb (ix2 p q))
  refine (payload_apply (iblk1 V c 0 t) (iblk1 V c 1 t) p q).trans ?_
  have hp : (p : Nat) < 5000 := p.isLt
  have ht : (t : Nat) < 20 := lt_of_lt_of_eq t.isLt N_1
  have hrow : t.val * 5000 + p.val < 100000 := by omega
  have hemb : ((cfg1.win 2).blk t).view.emb (ix2 p q) = ix2 (n0 := 100000) (n1 := 128) ⟨t.val * 5000 + p.val, hrow⟩ q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hemb, matProd_ix2]
  refine Finset.sum_congr rfl fun k _ => ?_
  have hx : iblk1 V c 0 t (ix2 p k) = V c main_v49 (ix2 (n0 := 100000) (n1 := 128) ⟨t.val * 5000 + p.val, hrow⟩ k) := by
    show V c main_v49 (((cfg1.win 0).blk t).view.emb (ix2 p k)) = _
    refine congrArg (V c main_v49) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hw : iblk1 V c 1 t (ix2 k q) = V c main_arg4 (ix2 (n0 := 128) (n1 := 128) k q) := by
    show V c main_arg4 (((cfg1.win 1).blk t).view.emb (ix2 k q)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [hx, hw]

/-- An index of the result is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r of the result lies in the block of point r / 5000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- The result array after the region is the matrix product of the two arrays the region found. -/
theorem arr_matProd (c : Dev nD) : (dat1 V c).arrAt 2 cfg1.N
    = matProd (R := 100000) (K := 128) (C := 128) (φ₁ := .f32) (φ₂ := .f32) (V c main_v49) (V c main_arg4) :=
  (dat1 V c).arrAt_eq_of_cover 2 _ (fun t _ => flushed_eq V c t) covered

/-- The reference's `dot_general` of the same two arrays is that product. -/
theorem dense_matProd (x : FVec Ideal ⟨2, ![100000, 128]⟩ .f32) (w : FVec Ideal ⟨2, ![128, 128]⟩ .f32) :
    Cert.Gcn.dense2 (F := Ideal) x w = matProd x w := by
  unfold Cert.Gcn.dense2
  refine Cert.LibMatProd.dotGeneral_eq _ rfl rfl rfl rfl (fun i c => ?_) (fun i c => ?_) none x w
  · unfold DotDims.lhsIdx
    rw [dif_neg (show ¬(0 : Fin _) ∈ Cert.ReferenceIdeal.dot_S100000x128_S128x128_S100000x128_1_0_0_1_n_n.lhsBatch by decide),
      dif_pos (show (0 : Fin _) ∈ Cert.ReferenceIdeal.dot_S100000x128_S128x128_S100000x128_1_0_0_1_n_n.lhsNonContracting by decide)]
    rfl
  · unfold DotDims.rhsIdx
    rw [dif_neg (show ¬(1 : Fin _) ∈ Cert.ReferenceIdeal.dot_S100000x128_S128x128_S100000x128_1_0_0_1_n_n.rhsBatch by decide),
      dif_pos (show (1 : Fin _) ∈ Cert.ReferenceIdeal.dot_S100000x128_S128x128_S100000x128_1_0_0_1_n_n.rhsNonContracting by decide)]
    rfl

/-- So the region's result array is the reference's dense stage of the two arrays the region found. -/
theorem arr_dense (c : Dev nD) : (dat1 V c).arrAt 2 cfg1.N = Cert.Gcn.dense2 (F := Ideal) (V c main_v49) (V c main_arg4) :=
  (arr_matProd V c).trans (dense_matProd _ _).symm

end Cert.KernelIdeal.Dense1

end
-- ==== Proof.Dense2.lean ====
/-
  The third dense product as the kernel's pipeline leaves it.

  The pipeline runs over 20 grid points; at point t the body loads rows 5000·t … 5000·t + 4999 of the left array (a
  [5000, 128] block), the whole [128, 40] right array, and stores a [5000, 40] block whose entry (p, q) is
  Σ_{k < 128} x(5000·t + p, k) · w(k, q): the same-shape cast of the left block and the rounding of the operands to bf16 are the identity on extended reals, and a
  matrix product into the zero accumulator is the plain sum.  That block is written back to rows 5000·t … of the
  result, and the 20 blocks tile the result's 100000 rows: the result array ends as the matrix product of the two arrays
  the region found, which is the host's `dot_general` of them.
-/
import proofs.«129346_j59407987638622_1_alg».proof.Proof.Gen.KernelIdeal.Frame
import proofs.«129346_j59407987638622_1_alg».proof.Proof.LibMatmulZero
import proofs.«129346_j59407987638622_1_alg».proof.Proof.LibMatProd
import proofs.«129346_j59407987638622_1_alg».proof.Proof.Stages
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.ShloMosaic.ValueIdx Idealize.SL.Sem
open Cert.LibMatProd (matProd matProd_ix2)

/-- The left operand's row index and the right operand's column index are the result's. -/
theorem lhs_row : ∀ (i : S5000x40.Idx) (c : dot_S5000x128_S128x40_S5000x40_1_0_0_1_n_n.contr.Idx),
    (dot_S5000x128_S128x40_S5000x40_1_0_0_1_n_n.lhsIdx i c 0).val = (i 0).val := fun i c => by
  unfold DotDims.lhsIdx
  rw [dif_neg (show ¬(0 : Fin _) ∈ dot_S5000x128_S128x40_S5000x40_1_0_0_1_n_n.lhsBatch by decide),
    dif_pos (show (0 : Fin _) ∈ dot_S5000x128_S128x40_S5000x40_1_0_0_1_n_n.lhsNonContracting by decide)]
  rfl
theorem rhs_col : ∀ (i : S5000x40.Idx) (c : dot_S5000x128_S128x40_S5000x40_1_0_0_1_n_n.contr.Idx),
    (dot_S5000x128_S128x40_S5000x40_1_0_0_1_n_n.rhsIdx i c 1).val = (i 1).val := fun i c => by
  unfold DotDims.rhsIdx
  rw [dif_neg (show ¬(1 : Fin _) ∈ dot_S5000x128_S128x40_S5000x40_1_0_0_1_n_n.rhsBatch by decide),
    dif_pos (show (1 : Fin _) ∈ dot_S5000x128_S128x40_S5000x40_1_0_0_1_n_n.rhsNonContracting by decide)]
  rfl

/-- The body's stored value at entry (p, q) of its block: Σ_k x(p, k) · w(k, q) of the two loaded blocks. -/
theorem payload_apply (x0 : Vec Ideal S5000x128 .f32) (x1 : Vec Ideal S128x40 .f32) (p : Fin 5000) (q : Fin 40) :
    k2_pay1 x0 x1 (ix2 p q) = ∑ k : Fin 128, x0 (ix2 p k) * x1 (ix2 k q) := by
  unfold k2_pay1
  refine (Cert.LibMatmulZero.matmul_zero_ix2 dot_S5000x128_S128x40_S5000x40_1_0_0_1_n_n rfl rfl rfl rfl lhs_row rhs_col none _ _ p q).trans ?_
  refine Finset.sum_congr rfl fun k _ => ?_
  show shapeCast S5000x128 x0 shapeCasts_S5000x128_S5000x128 (ix2 p k) * x1 (ix2 k q) = x0 (ix2 p k) * x1 (ix2 k q)
  rw [shapeCast_self]

theorem origin : (![0, 0] : Fin 2 → Nat) = fun _ => 0 := funext fun a => by fin_cases a <;> rfl

/-- The printed index maps over the grid: the left and result blocks are block-row t, the right block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the matrix product of the two arrays as the region finds them. -/
theorem flushed_eq (c : Dev nD) (t : Fin cfg2.N) :
    (dat2 V c).flushed 2 t = ((cfg2.win 2).blk t).view.read (Elt Ideal)
      (matProd (R := 100000) (K := 128) (C := 40) (φ₁ := .f32) (φ₂ := .f32) (V c main_v67) (V c main_arg6)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x40) origin]
  obtain ⟨e0, e1, e2, e3, e4, e5⟩ := idx_facts t
  funext (j : S5000x40.Idx)
  obtain ⟨p, q, rfl⟩ : ∃ (p : Fin 5000) (q : Fin 40), j = ix2 p q := ⟨j 0, j 1, eq_ix2 j⟩
  show k2_pay1 (iblk2 V c 0 t) (iblk2 V c 1 t) (ix2 p q)
    = matProd (R := 100000) (K := 128) (C := 40) (φ₁ := .f32) (φ₂ := .f32) (V c main_v67) (V c main_arg6) (((cfg2.win 2).blk t).view.emb (ix2 p q))
  refine (payload_apply (iblk2 V c 0 t) (iblk2 V c 1 t) p q).trans ?_
  have hp : (p : Nat) < 5000 := p.isLt
  have ht : (t : Nat) < 20 := lt_of_lt_of_eq t.isLt N_2
  have hrow : t.val * 5000 + p.val < 100000 := by omega
  have hemb : ((cfg2.win 2).blk t).view.emb (ix2 p q) = ix2 (n0 := 100000) (n1 := 40) ⟨t.val * 5000 + p.val, hrow⟩ q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [hemb, matProd_ix2]
  refine Finset.sum_congr rfl fun k _ => ?_
  have hx : iblk2 V c 0 t (ix2 p k) = V c main_v67 (ix2 (n0 := 100000) (n1 := 128) ⟨t.val * 5000 + p.val, hrow⟩ k) := by
    show V c main_v67 (((cfg2.win 0).blk t).view.emb (ix2 p k)) = _
    refine congrArg (V c main_v67) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hw : iblk2 V c 1 t (ix2 k q) = V c main_arg6 (ix2 (n0 := 128) (n1 := 40) k q) := by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 40 + 1 * q.val = q.val; omega
  rw [hx, hw]

/-- An index of the result is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v68).slice (win2_2.rect t)).set ↔ _
  rw [View.set_slice_whole, Rect.mem_set_unit]
  exact Iff.rfl

/-- Row r of the result lies in the block of point r / 5000. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  have hlt : (i 0).val / 5000 < cfg2.N := by rw [hN]; omega
  obtain ⟨e0, e1, e2, e3, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 40 ≤ (i 1).val ∧ (i 1).val < win2_2.index ⟨(i 0).val / 5000, hlt⟩ (1 : Fin 2) * 40 + 40
    rw [e5]; omega

/-- The result array after the region is the matrix product of the two arrays the region found. -/
theorem arr_matProd (c : Dev nD) : (dat2 V c).arrAt 2 cfg2.N
    = matProd (R := 100000) (K := 128) (C := 40) (φ₁ := .f32) (φ₂ := .f32) (V c main_v67) (V c main_arg6) :=
  (dat2 V c).arrAt_eq_of_cover 2 _ (fun t _ => flushed_eq V c t) covered

/-- The reference's `dot_general` of the same two arrays is that product. -/
theorem dense_matProd (x : FVec Ideal ⟨2, ![100000, 128]⟩ .f32) (w : FVec Ideal ⟨2, ![128, 40]⟩ .f32) :
    Cert.Gcn.dense3 (F := Ideal) x w = matProd x w := by
  unfold Cert.Gcn.dense3
  refine Cert.LibMatProd.dotGeneral_eq _ rfl rfl rfl rfl (fun i c => ?_) (fun i c => ?_) none x w
  · unfold DotDims.lhsIdx
    rw [dif_neg (show ¬(0 : Fin _) ∈ Cert.ReferenceIdeal.dot_S100000x128_S128x40_S100000x40_1_0_0_1_n_n.lhsBatch by decide),
      dif_pos (show (0 : Fin _) ∈ Cert.ReferenceIdeal.dot_S100000x128_S128x40_S100000x40_1_0_0_1_n_n.lhsNonContracting by decide)]
    rfl
  · unfold DotDims.rhsIdx
    rw [dif_neg (show ¬(1 : Fin _) ∈ Cert.ReferenceIdeal.dot_S100000x128_S128x40_S100000x40_1_0_0_1_n_n.rhsBatch by decide),
      dif_pos (show (1 : Fin _) ∈ Cert.ReferenceIdeal.dot_S100000x128_S128x40_S100000x40_1_0_0_1_n_n.rhsNonContracting by decide)]
    rfl

/-- So the region's result array is the reference's dense stage of the two arrays the region found. -/
theorem arr_dense (c : Dev nD) : (dat2 V c).arrAt 2 cfg2.N = Cert.Gcn.dense3 (F := Ideal) (V c main_v67) (V c main_arg6) :=
  (arr_matProd V c).trans (dense_matProd _ _).symm

end Cert.KernelIdeal.Dense2

end
-- ==== Proof.KernelStages.lean ====
/-
  What the idealized kernel's result buffer holds at the end of the run: the network `Cert.Gcn.out` of the arguments.

  The buffer contents at the boundaries between the program's segments are a fold from the launch memory (W0 … W11 of
  the generated frame module).  Walking that fold:
    · the host operations before the first region compute the message ends s, d and the weights w from the edge list;
    · each region leaves, in its result array, the dense product of the two arrays it found (modules Dense0/1/2);
    · the host operations after a region aggregate that product over the messages, add the bias (and rectify);
    · s, d, w and the parameter arrays are written by nothing after they are made, so every later boundary still holds
      them (`Live`).
  Composing the stages gives `out` with the reference's dense stages in the three places where the kernel runs a
  pipeline.
-/
import proofs.«129346_j59407987638622_1_alg».proof.Proof.Gen.KernelIdeal.Frame
import proofs.«129346_j59407987638622_1_alg».proof.Proof.Stages
import proofs.«129346_j59407987638622_1_alg».proof.Proof.Dense0
import proofs.«129346_j59407987638622_1_alg».proof.Proof.Dense1
import proofs.«129346_j59407987638622_1_alg».proof.Proof.Dense2
import Idealize.ShloMosaic.Lib.StableHlo.Run

set_option maxRecDepth 16384
set_option maxHeartbeats 2000000

noncomputable section

namespace Cert.KernelIdeal.Net

open Cert.KernelIdeal Cert.KernelIdeal.Gen
open Idealize.ShloMosaic Idealize.ShloMosaic.TcCoe Idealize.SL.Sem Idealize.ShloMosaic.StableHlo
open Cert.Gcn (srcIdx dstIdx weights dense1 dense2 dense3 agg128 agg40 relu128)

/-- Closes `after ops X b = X b` for a buffer `b` that no operation of the literal stretch `ops` writes. -/
macro "unwritten" : tactic => `(tactic| (
  refine StableHlo.after_of_forall_not_mem _ _ (List.forall_iff_forall_mem.mp ?_)
  simp only [hostOps0, hostOps0_1, hostOps0_2, hostOps1, hostOps1_1, hostOps2, hostOps2_1, hostOps3, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

variable (m : (ℓ : Loc nD τ sig) → Buf (Elt Ideal) ℓ) (ρ : Dev nD → PrngReg)

/-! ## The stretches of host operations, over any contents `X` -/

section Stretches
variable (X : Valuation τ sig (Elt Ideal))

/-- Rewriting may go under a concatenation's list of (shape, array) pairs. -/
theorem pair_congr {α : Type} {S : Shape} {x y : S.Idx → α} (h : x = y) :
    (⟨S, x⟩ : (s : Shape) × (s.Idx → α)) = ⟨S, y⟩ := by rw [h]
attribute [local congr] pair_congr

/-- The first stretch makes the messages' sources from the edge list … -/
theorem ends_src : after hostOps0 X (Proc.devRef .tc main_v3) = srcIdx (F := Ideal) (X (Proc.devRef .tc main_arg1)) := by
  simp only [hostOps0]
  after_results_simp <;> rfl

/-- … their targets … -/
theorem ends_dst : after hostOps0 X (Proc.devRef .tc main_v6) = dstIdx (F := Ideal) (X (Proc.devRef .tc main_arg1)) := by
  simp only [hostOps0]
  after_results_simp <;> rfl

/-- … where the degree is positive … -/
theorem deg_pos : after hostOps0 X (Proc.devRef .tc main_v12)
    = cmpf (F := Ideal) .ogt (Cert.Gcn.degree (F := Ideal) (dstIdx (F := Ideal) (X (Proc.devRef .tc main_arg1))))
        (broadcastInDim S100000 ![] bcast_S_S100000 (constant (F := Ideal) S_ .f32 0x00000000#32)) := by
  simp only [hostOps0]
  after_results_simp <;> rfl

/-- … the inverse square root of the floored degree … -/
theorem deg_rsqrt : after hostOps0 X (Proc.devRef .tc main_v15)
    = Host.rsqrt (maximumf (Cert.Gcn.degree (F := Ideal) (dstIdx (F := Ideal) (X (Proc.devRef .tc main_arg1))))
        (broadcastInDim S100000 ![] bcast_S_S100000 (constant (F := Ideal) S_ .f32 0x2B8CBCCC#32))) := by
  simp only [hostOps0]
  after_results_simp <;> rfl

/-- … and a zero. -/
theorem deg_zero : after hostOps0 X (Proc.devRef .tc main_cst_3) = constant (F := Ideal) S_ .f32 0x00000000#32 := by
  simp only [hostOps0]
  after_results_simp <;> rfl

/-- The outlined select: the inverse square root where the degree is positive, else the zero. -/
theorem where_stretch : after hostOps0_1 X (Proc.devRef .tc main_v16)
    = select (X (Proc.devRef .tc main_v12)) (X (Proc.devRef .tc main_v15))
        (broadcastInDim S100000 ![] bcast_S_S100000 (id (X (Proc.devRef .tc main_cst_3)))) := by
  simp only [hostOps0_1]
  after_results_simp <;> rfl

/-- So after the first two stretches: deg^(-1/2), guarded. -/
theorem prelude_dinv : after hostOps0_1 (after hostOps0 X) (Proc.devRef .tc main_v16)
    = Cert.Gcn.invSqrtDeg (F := Ideal) (dstIdx (F := Ideal) (X (Proc.devRef .tc main_arg1))) := by
  refine (where_stretch (after hostOps0 X)).trans ?_
  rw [deg_pos, deg_rsqrt, deg_zero]
  rfl

/-- The third stretch: the weights from the message ends and the guarded inverse square roots. -/
theorem weights_stretch : after hostOps0_2 X (Proc.devRef .tc main_v31)
    = Cert.Gcn.weightsOf (F := Ideal) (X (Proc.devRef .tc main_v16)) (X (Proc.devRef .tc main_v3)) (X (Proc.devRef .tc main_v6)) := by
  simp only [hostOps0_2]
  after_results_simp <;> rfl

/-- The message ends survive the later stretches of the prelude. -/
theorem prelude_src : after hostOps0_2 (after hostOps0_1 (after hostOps0 X)) (Proc.devRef .tc main_v3)
    = srcIdx (F := Ideal) (X (Proc.devRef .tc main_arg1)) :=
  (by unwritten : _ = _).trans ((by unwritten : _ = _).trans (ends_src X))
theorem prelude_dst : after hostOps0_2 (after hostOps0_1 (after hostOps0 X)) (Proc.devRef .tc main_v6)
    = dstIdx (F := Ideal) (X (Proc.devRef .tc main_arg1)) :=
  (by unwritten : _ = _).trans ((by unwritten : _ = _).trans (ends_dst X))

/-- The weights after the whole prelude. -/
theorem prelude_weights : after hostOps0_2 (after hostOps0_1 (after hostOps0 X)) (Proc.devRef .tc main_v31)
    = weights (F := Ideal) (srcIdx (F := Ideal) (X (Proc.devRef .tc main_arg1))) (dstIdx (F := Ideal) (X (Proc.devRef .tc main_arg1))) := by
  refine (weights_stretch (after hostOps0_1 (after hostOps0 X))).trans ?_
  rw [prelude_dinv, show after hostOps0_1 (after hostOps0 X) (Proc.devRef .tc main_v3) = srcIdx (F := Ideal) (X (Proc.devRef .tc main_arg1))
      from (by unwritten : _ = _).trans (ends_src X),
    show after hostOps0_1 (after hostOps0 X) (Proc.devRef .tc main_v6) = dstIdx (F := Ideal) (X (Proc.devRef .tc main_arg1))
      from (by unwritten : _ = _).trans (ends_dst X)]
  rfl

/-- A layer's aggregation at 128 features: gather, weigh, add up at the targets, add the bias. -/
theorem agg_stretch1 : after hostOps1 X (Proc.devRef .tc main_v48)
    = agg128 (F := Ideal) (X (Proc.devRef .tc main_v32)) (X (Proc.devRef .tc main_arg3))
        (X (Proc.devRef .tc main_v3)) (X (Proc.devRef .tc main_v6)) (X (Proc.devRef .tc main_v31)) := by
  simp only [hostOps1]
  after_results_simp <;> rfl
theorem agg_stretch2 : after hostOps2 X (Proc.devRef .tc main_v66)
    = agg128 (F := Ideal) (X (Proc.devRef .tc main_v50)) (X (Proc.devRef .tc main_arg5))
        (X (Proc.devRef .tc main_v3)) (X (Proc.devRef .tc main_v6)) (X (Proc.devRef .tc main_v31)) := by
  simp only [hostOps2]
  after_results_simp <;> rfl

/-- The outlined rectifier. -/
theorem relu_stretch1 : after hostOps1_1 X (Proc.devRef .tc main_v49) = relu128 (F := Ideal) (X (Proc.devRef .tc main_v48)) := by
  simp only [hostOps1_1]
  after_results_simp <;> rfl
theorem relu_stretch2 : after hostOps2_1 X (Proc.devRef .tc main_v67) = relu128 (F := Ideal) (X (Proc.devRef .tc main_v66)) := by
  simp only [hostOps2_1]
  after_results_simp <;> rfl

/-- After the first region: aggregate, add the bias, rectify. -/
theorem layer1 : after hostOps1_1 (after hostOps1 X) (Proc.devRef .tc main_v49)
    = relu128 (F := Ideal) (agg128 (F := Ideal) (X (Proc.devRef .tc main_v32)) (X (Proc.devRef .tc main_arg3))
        (X (Proc.devRef .tc main_v3)) (X (Proc.devRef .tc main_v6)) (X (Proc.devRef .tc main_v31))) :=
  (relu_stretch1 (after hostOps1 X)).trans (congrArg (relu128 (F := Ideal)) (agg_stretch1 X))

/-- After the second region: the same with the second layer's bias. -/
theorem layer2 : after hostOps2_1 (after hostOps2 X) (Proc.devRef .tc main_v67)
    = relu128 (F := Ideal) (agg128 (F := Ideal) (X (Proc.devRef .tc main_v50)) (X (Proc.devRef .tc main_arg5))
        (X (Proc.devRef .tc main_v3)) (X (Proc.devRef .tc main_v6)) (X (Proc.devRef .tc main_v31))) :=
  (relu_stretch2 (after hostOps2 X)).trans (congrArg (relu128 (F := Ideal)) (agg_stretch2 X))

/-- After the third region: the aggregation at 40 features, no rectifier. -/
theorem layer3 : after hostOps3 X (Proc.devRef .tc main_v84)
    = agg40 (F := Ideal) (X (Proc.devRef .tc main_v68)) (X (Proc.devRef .tc main_arg7))
        (X (Proc.devRef .tc main_v3)) (X (Proc.devRef .tc main_v6)) (X (Proc.devRef .tc main_v31)) := by
  simp only [hostOps3]
  after_results_simp <;> rfl

end Stretches

/-! ## What stays: the message ends, the weights and the parameter arrays -/

/-- Contents `X` hold the message ends and weights made from the launched edge list, and the launched parameter arrays
    of the layers still to come. -/
def Live (c : Dev nD) (X : Valuation τ sig (Elt Ideal)) : Prop :=
  X (Proc.devRef .tc main_v3) = srcIdx (F := Ideal) (m ((c : Thread nD τ).loc main_arg1))
  ∧ X (Proc.devRef .tc main_v6) = dstIdx (F := Ideal) (m ((c : Thread nD τ).loc main_arg1))
  ∧ X (Proc.devRef .tc main_v31) = weights (F := Ideal) (srcIdx (F := Ideal) (m ((c : Thread nD τ).loc main_arg1))) (dstIdx (F := Ideal) (m ((c : Thread nD τ).loc main_arg1)))
  ∧ X (Proc.devRef .tc main_arg3) = m ((c : Thread nD τ).loc main_arg3)
  ∧ X (Proc.devRef .tc main_arg4) = m ((c : Thread nD τ).loc main_arg4)
  ∧ X (Proc.devRef .tc main_arg5) = m ((c : Thread nD τ).loc main_arg5)
  ∧ X (Proc.devRef .tc main_arg6) = m ((c : Thread nD τ).loc main_arg6)
  ∧ X (Proc.devRef .tc main_arg7) = m ((c : Thread nD τ).loc main_arg7)

/-- At the first region's entry. -/
theorem live3 (c : Dev nD) : Live m c (W3 m ρ c) :=
  ⟨prelude_src (W0 m ρ c), prelude_dst (W0 m ρ c), prelude_weights (W0 m ρ c),
   (by unwritten : _ = _).trans ((by unwritten : _ = _).trans (by unwritten)),
   (by unwritten : _ = _).trans ((by unwritten : _ = _).trans (by unwritten)),
   (by unwritten : _ = _).trans ((by unwritten : _ = _).trans (by unwritten)),
   (by unwritten : _ = _).trans ((by unwritten : _ = _).trans (by unwritten)),
   (by unwritten : _ = _).trans ((by unwritten : _ = _).trans (by unwritten))⟩

/-- The first layer's operands at the first region's entry are the launched ones. -/
theorem x3 (c : Dev nD) : W3 m ρ c (Proc.devRef .tc main_arg0) = m ((c : Thread nD τ).loc main_arg0) :=
  (by unwritten : _ = _).trans ((by unwritten : _ = _).trans (by unwritten))
theorem w3 (c : Dev nD) : W3 m ρ c (Proc.devRef .tc main_arg2) = m ((c : Thread nD τ).loc main_arg2) :=
  (by unwritten : _ = _).trans ((by unwritten : _ = _).trans (by unwritten))

/-- A region writes only its result array (an array it reads through an input window ends as it was found). -/
theorem live4 (c : Dev nD) : Live m c (W4 m ρ c) := by
  obtain ⟨h1, h2, h3, h4, h5, h6, h7, h8⟩ := live3 m ρ c
  exact ⟨(W4_of_ne m ρ c _ (by decide)).trans h1, (W4_of_ne m ρ c _ (by decide)).trans h2, (W4_of_ne m ρ c _ (by decide)).trans h3,
    (W4_of_ne m ρ c _ (by decide)).trans h4, (W4_of_ne m ρ c _ (by decide)).trans h5, (W4_of_ne m ρ c _ (by decide)).trans h6,
    (W4_of_ne m ρ c _ (by decide)).trans h7, (W4_of_ne m ρ c _ (by decide)).trans h8⟩

/-- The stretch after the first region writes none of them. -/
theorem live6 (c : Dev nD) : Live m c (W6 m ρ c) := by
  obtain ⟨h1, h2, h3, h4, h5, h6, h7, h8⟩ := live4 m ρ c
  exact ⟨(by unwritten : _ = _).trans ((by unwritten : _ = _).trans h1), (by unwritten : _ = _).trans ((by unwritten : _ = _).trans h2),
    (by unwritten : _ = _).trans ((by unwritten : _ = _).trans h3), (by unwritten : _ = _).trans ((by unwritten : _ = _).trans h4),
    (by unwritten : _ = _).trans ((by unwritten : _ = _).trans h5), (by unwritten : _ = _).trans ((by unwritten : _ = _).trans h6),
    (by unwritten : _ = _).trans ((by unwritten : _ = _).trans h7), (by unwritten : _ = _).trans ((by unwritten : _ = _).trans h8)⟩

theorem live7 (c : Dev nD) : Live m c (W7 m ρ c) := by
  obtain ⟨h1, h2, h3, h4, h5, h6, h7, h8⟩ := live6 m ρ c
  exact ⟨(W7_of_ne m ρ c _ (by decide)).trans h1, (W7_of_ne m ρ c _ (by decide)).trans h2, (W7_of_ne m ρ c _ (by decide)).trans h3,
    (W7_of_ne m ρ c _ (by decide)).trans h4,
    ((W7_arr m ρ c 1).trans (((dat1 (V6 m ρ) c).arrAt_in 1 rfl _).trans (A_eq1 (V6 m ρ) c 1))).trans h5,
    (W7_of_ne m ρ c _ (by decide)).trans h6,
    (W7_of_ne m ρ c _ (by decide)).trans h7, (W7_of_ne m ρ c _ (by decide)).trans h8⟩

theorem live9 (c : Dev nD) : Live m c (W9 m ρ c) := by
  obtain ⟨h1, h2, h3, h4, h5, h6, h7, h8⟩ := live7 m ρ c
  exact ⟨(by unwritten : _ = _).trans ((by unwritten : _ = _).trans h1), (by unwritten : _ = _).trans ((by unwritten : _ = _).trans h2),
    (by unwritten : _ = _).trans ((by unwritten : _ = _).trans h3), (by unwritten : _ = _).trans ((by unwritten : _ = _).trans h4),
    (by unwritten : _ = _).trans ((by unwritten : _ = _).trans h5), (by unwritten : _ = _).trans ((by unwritten : _ = _).trans h6),
    (by unwritten : _ = _).trans ((by unwritten : _ = _).trans h7), (by unwritten : _ = _).trans ((by unwritten : _ = _).trans h8)⟩

theorem live10 (c : Dev nD) : Live m c (W10 m ρ c) := by
  obtain ⟨h1, h2, h3, h4, h5, h6, h7, h8⟩ := live9 m ρ c
  exact ⟨(W10_of_ne m ρ c _ (by decide)).trans h1, (W10_of_ne m ρ c _ (by decide)).trans h2, (W10_of_ne m ρ c _ (by decide)).trans h3,
    (W10_of_ne m ρ c _ (by decide)).trans h4, (W10_of_ne m ρ c _ (by decide)).trans h5, (W10_of_ne m ρ c _ (by decide)).trans h6,
    ((W10_arr m ρ c 1).trans (((dat2 (V9 m ρ) c).arrAt_in 1 rfl _).trans (A_eq2 (V9 m ρ) c 1))).trans h7,
    (W10_of_ne m ρ c _ (by decide)).trans h8⟩

/-! ## The hidden features, layer by layer -/

/-- The first dense product. -/
theorem h1_dense (c : Dev nD) : W4 m ρ c (Proc.devRef .tc main_v32)
    = dense1 (F := Ideal) (m ((c : Thread nD τ).loc main_arg0)) (m ((c : Thread nD τ).loc main_arg2)) := by
  refine ((W4_arr m ρ c 2).trans (Cert.KernelIdeal.Dense0.arr_dense (V3 m ρ) c)).trans ?_
  show dense1 (F := Ideal) (W3 m ρ c (Proc.devRef .tc main_arg0)) (W3 m ρ c (Proc.devRef .tc main_arg2)) = _
  rw [x3, w3]

/-- The first layer's output. -/
theorem h1 (c : Dev nD) : W6 m ρ c (Proc.devRef .tc main_v49)
    = relu128 (F := Ideal) (agg128 (F := Ideal) (dense1 (F := Ideal) (m ((c : Thread nD τ).loc main_arg0)) (m ((c : Thread nD τ).loc main_arg2)))
        (m ((c : Thread nD τ).loc main_arg3)) (srcIdx (F := Ideal) (m ((c : Thread nD τ).loc main_arg1))) (dstIdx (F := Ideal) (m ((c : Thread nD τ).loc main_arg1)))
        (weights (F := Ideal) (srcIdx (F := Ideal) (m ((c : Thread nD τ).loc main_arg1))) (dstIdx (F := Ideal) (m ((c : Thread nD τ).loc main_arg1))))) := by
  obtain ⟨e1, e2, e3, e4, -, -, -, -⟩ := live4 m ρ c
  refine (layer1 (W4 m ρ c)).trans ?_
  rw [h1_dense, e1, e2, e3, e4]

/-- The second layer's output. -/
theorem h2 (c : Dev nD) : W9 m ρ c (Proc.devRef .tc main_v67)
    = relu128 (F := Ideal) (agg128 (F := Ideal) (dense2 (F := Ideal) (W6 m ρ c (Proc.devRef .tc main_v49)) (m ((c : Thread nD τ).loc main_arg4)))
        (m ((c : Thread nD τ).loc main_arg5)) (srcIdx (F := Ideal) (m ((c : Thread nD τ).loc main_arg1))) (dstIdx (F := Ideal) (m ((c : Thread nD τ).loc main_arg1)))
        (weights (F := Ideal) (srcIdx (F := Ideal) (m ((c : Thread nD τ).loc main_arg1))) (dstIdx (F := Ideal) (m ((c : Thread nD τ).loc main_arg1))))) := by
  obtain ⟨e1, e2, e3, -, -, e6, -, -⟩ := live7 m ρ c
  obtain ⟨-, -, -, -, g5, -, -, -⟩ := live6 m ρ c
  refine (layer2 (W7 m ρ c)).trans ?_
  have hd : W7 m ρ c (Proc.devRef .tc main_v50) = dense2 (F := Ideal) (W6 m ρ c (Proc.devRef .tc main_v49)) (m ((c : Thread nD τ).loc main_arg4)) := by
    refine ((W7_arr m ρ c 2).trans (Cert.KernelIdeal.Dense1.arr_dense (V6 m ρ) c)).trans ?_
    show dense2 (F := Ideal) (W6 m ρ c (Proc.devRef .tc main_v49)) (W6 m ρ c (Proc.devRef .tc main_arg4)) = _
    rw [g5]
  rw [hd, e1, e2, e3, e6]

/-- The result buffer at the end of the run is the network of the launched arguments. -/
theorem result (c : Dev nD) : W11 m ρ c (Proc.devRef .tc main_v84)
    = Cert.Gcn.out (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  obtain ⟨e1, e2, e3, -, -, -, -, e8⟩ := live10 m ρ c
  obtain ⟨-, -, -, -, -, -, g7, -⟩ := live9 m ρ c
  refine (layer3 (W10 m ρ c)).trans ?_
  have hd : W10 m ρ c (Proc.devRef .tc main_v68) = dense3 (F := Ideal) (W9 m ρ c (Proc.devRef .tc main_v67)) (m ((c : Thread nD τ).loc main_arg6)) := by
    refine ((W10_arr m ρ c 2).trans (Cert.KernelIdeal.Dense2.arr_dense (V9 m ρ) c)).trans ?_
    show dense3 (F := Ideal) (W9 m ρ c (Proc.devRef .tc main_v67)) (W9 m ρ c (Proc.devRef .tc main_arg6)) = _
    rw [g7]
  rw [hd, e1, e2, e3, e8, h2, h1]
  rfl

end Cert.KernelIdeal.Net

end
-- ==== Proof.RefCut.lean ====
/-
  The reference program's 109 host operations, cut where the kernel's program has its three pipelined regions: eight
  stretches that are, operation for operation, the kernel program's host stretches, and between them the three
  `dot_general` operations.  The lists below are the operations of the reference's list `ops` in order; `ops_cut` says
  so.
-/
import proofs.«129346_j59407987638622_1_alg».proof.Proof.RefRun

noncomputable section

namespace Cert.ReferenceIdeal.Cut

open Cert.ReferenceIdeal Cert.ReferenceIdeal.Gen Idealize.ShloMosaic Idealize.ShloMosaic.TcCoe Idealize.SL.Sem Idealize.ShloMosaic.StableHlo

variable {F : FTy → Type} [FloatOps F]

/-- The first stretch: the message ends, the degrees, their floored inverse square roots. -/
abbrev hostOps0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- The outlined select: 0 where the degree is not positive. -/
abbrev hostOps0_1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The weights of the messages. -/
abbrev hostOps0_2 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first dense product. -/
abbrev denseOp1 : List (HloOp τ sig (Elt F)) :=
  [ binary main_arg0 main_arg2 main_v32 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)) ]

/-- The first layer's aggregation and bias. -/
abbrev hostOps1 : List (HloOp τ sig (Elt F)) :=
  [ nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The first rectifier. -/
abbrev hostOps1_1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- The second dense product. -/
abbrev denseOp2 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second layer's aggregation and bias. -/
abbrev hostOps2 : List (HloOp τ sig (Elt F)) :=
  [ nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)) ]

/-- The second rectifier. -/
abbrev hostOps2_1 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

/-- The third dense product. -/
abbrev denseOp3 : List (HloOp τ sig (Elt F)) :=
  [ binary main_v67 main_arg6 main_v68 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- The third layer's aggregation and bias. -/
abbrev hostOps3 : List (HloOp τ sig (Elt F)) :=
  [ nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x40 ![0, 1] bcast_S1700000x1_S1700000x40_0_1 : (⟨S1700000x1, .f32⟩ : BufTy).Contents (Elt F) → (⟨S1700000x40, .f32⟩ : BufTy).Contents (Elt F)),
    binary main_v75 main_v77 main_v78 (mulf : (⟨S1700000x40, .f32⟩ : BufTy).Contents (Elt F) → (⟨S1700000x40, .f32⟩ : BufTy).Contents (Elt F) → (⟨S1700000x40, .f32⟩ : BufTy).Contents (Elt F)),
    nullary main_cst_15 (constant S_ .f32 0x00000000#32),
    unary main_cst_15 main_v79 (broadcastInDim S100000x40 ![] bcast_S_S100000x40 : (⟨S_, .f32⟩ : BufTy).Contents (Elt F) → (⟨S100000x40, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v82 (broadcastInDim S1x40 ![1] bcast_S40_S1x40_1 : (⟨S40, .f32⟩ : BufTy).Contents (Elt F) → (⟨S1x40, .f32⟩ : BufTy).Contents (Elt F)),
    unary main_v82 main_v83 (broadcastInDim S100000x40 ![0, 1] bcast_S1x40_S100000x40_0_1 : (⟨S1x40, .f32⟩ : BufTy).Contents (Elt F) → (⟨S100000x40, .f32⟩ : BufTy).Contents (Elt F)),
    binary main_v81 main_v83 main_v84 (addf : (⟨S100000x40, .f32⟩ : BufTy).Contents (Elt F) → (⟨S100000x40, .f32⟩ : BufTy).Contents (Elt F) → (⟨S100000x40, .f32⟩ : BufTy).Contents (Elt F)) ]

set_option maxRecDepth 8192 in
/-- The reference's operations are these eleven lists, one after the other. -/
theorem ops_cut : (Cert.ReferenceIdeal.RunP.ops : List (HloOp τ sig (Elt F)))
    = hostOps0 ++ (hostOps0_1 ++ (hostOps0_2 ++ (denseOp1 ++ (hostOps1 ++ (hostOps1_1 ++ (denseOp2 ++ (hostOps2 ++ (hostOps2_1 ++ (denseOp3 ++ hostOps3))))))))) := rfl

end Cert.ReferenceIdeal.Cut

end
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.RefStages.lean ====
/-
  What the reference's result buffer holds at the end of its run: the network `Cert.Gcn.out` of the arguments.

  The reference is one line of 109 host operations; cut at its three dense products (module RefCut) it is the same
  eight stretches as the kernel's program with a `dot_general` where the kernel runs a pipeline.  The fold of the
  operations over the launch contents is walked stretch by stretch exactly as the kernel's: the message ends, the
  weights and the parameter arrays are written once and kept (`Live`); each `dot_general` is the dense stage of the two
  buffers it reads; each stretch after one aggregates, adds the bias (and rectifies).
-/
import proofs.«129346_j59407987638622_1_alg».proof.Proof.RefCut
import proofs.«129346_j59407987638622_1_alg».proof.Proof.Stages
import proofs.«129346_j59407987638622_1_alg».proof.Proof.LibAfter
import Idealize.ShloMosaic.Lib.StableHlo.Run
import Idealize.ShloMosaic.PureOps.Ideal

set_option maxRecDepth 16384
set_option maxHeartbeats 2000000

noncomputable section

namespace Cert.ReferenceIdeal.Net

open Cert.ReferenceIdeal Cert.ReferenceIdeal.Gen Cert.ReferenceIdeal.Cut
open Idealize.ShloMosaic Idealize.ShloMosaic.TcCoe Idealize.SL.Sem Idealize.ShloMosaic.StableHlo
open Cert.Gcn (srcIdx dstIdx weights dense1 dense2 dense3 agg128 agg40 relu128)

/-- Closes `after ops X b = X b` for a buffer `b` that no operation of the literal stretch `ops` writes. -/
macro "unwritten" : tactic => `(tactic| (
  refine StableHlo.after_of_forall_not_mem _ _ (List.forall_iff_forall_mem.mp ?_)
  simp only [hostOps0, hostOps0_1, hostOps0_2, hostOps1, hostOps1_1, hostOps2, hostOps2_1, hostOps3, denseOp1, denseOp2, denseOp3, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

variable (m : (ℓ : Loc nD τ sig) → Buf (Elt Ideal) ℓ)

/-! ## The stretches of host operations, over any contents `X` -/

section Stretches
variable (X : Valuation τ sig (Elt Ideal))

/-- Rewriting may go under a concatenation's list of (shape, array) pairs. -/
theorem pair_congr {α : Type} {S : Shape} {x y : S.Idx → α} (h : x = y) :
    (⟨S, x⟩ : (s : Shape) × (s.Idx → α)) = ⟨S, y⟩ := by rw [h]
attribute [local congr] pair_congr

/-- The first stretch makes the messages' sources from the edge list … -/
theorem ends_src : after hostOps0 X (Proc.devRef .tc main_v3) = srcIdx (F := Ideal) (X (Proc.devRef .tc main_arg1)) := by
  simp only [hostOps0]
  after_results_simp <;> rfl

/-- … their targets … -/
theorem ends_dst : after hostOps0 X (Proc.devRef .tc main_v6) = dstIdx (F := Ideal) (X (Proc.devRef .tc main_arg1)) := by
  simp only [hostOps0]
  after_results_simp <;> rfl

/-- … where the degree is positive … -/
theorem deg_pos : after hostOps0 X (Proc.devRef .tc main_v12)
    = cmpf (F := Ideal) .ogt (Cert.Gcn.degree (F := Ideal) (dstIdx (F := Ideal) (X (Proc.devRef .tc main_arg1))))
        (broadcastInDim S100000 ![] bcast_S_S100000 (constant (F := Ideal) S_ .f32 0x00000000#32)) := by
  simp only [hostOps0]
  after_results_simp <;> rfl

/-- … the inverse square root of the floored degree … -/
theorem deg_rsqrt : after hostOps0 X (Proc.devRef .tc main_v15)
    = Host.rsqrt (maximumf (Cert.Gcn.degree (F := Ideal) (dstIdx (F := Ideal) (X (Proc.devRef .tc main_arg1))))
        (broadcastInDim S100000 ![] bcast_S_S100000 (constant (F := Ideal) S_ .f32 0x2B8CBCCC#32))) := by
  simp only [hostOps0]
  after_results_simp <;> rfl

/-- … and a zero. -/
theorem deg_zero : after hostOps0 X (Proc.devRef .tc main_cst_3) = constant (F := Ideal) S_ .f32 0x00000000#32 := by
  simp only [hostOps0]
  after_results_simp <;> rfl

/-- The outlined select: the inverse square root where the degree is positive, else the zero. -/
theorem where_stretch : after hostOps0_1 X (Proc.devRef .tc main_v16)
    = select (X (Proc.devRef .tc main_v12)) (X (Proc.devRef .tc main_v15))
        (broadcastInDim S100000 ![] bcast_S_S100000 (id (X (Proc.devRef .tc main_cst_3)))) := by
  simp only [hostOps0_1]
  after_results_simp <;> rfl

/-- So after the first two stretches: deg^(-1/2), guarded. -/
theorem prelude_dinv : after hostOps0_1 (after hostOps0 X) (Proc.devRef .tc main_v16)
    = Cert.Gcn.invSqrtDeg (F := Ideal) (dstIdx (F := Ideal) (X (Proc.devRef .tc main_arg1))) := by
  refine (where_stretch (after hostOps0 X)).trans ?_
  rw [deg_pos, deg_rsqrt, deg_zero]
  rfl

/-- The third stretch: the weights from the message ends and the guarded inverse square roots. -/
theorem weights_stretch : after hostOps0_2 X (Proc.devRef .tc main_v31)
    = Cert.Gcn.weightsOf (F := Ideal) (X (Proc.devRef .tc main_v16)) (X (Proc.devRef .tc main_v3)) (X (Proc.devRef .tc main_v6)) := by
  simp only [hostOps0_2]
  after_results_simp <;> rfl

/-- The message ends survive the later stretches of the prelude. -/
theorem prelude_src : after hostOps0_2 (after hostOps0_1 (after hostOps0 X)) (Proc.devRef .tc main_v3)
    = srcIdx (F := Ideal) (X (Proc.devRef .tc main_arg1)) :=
  (by unwritten : _ = _).trans ((by unwritten : _ = _).trans (ends_src X))
theorem prelude_dst : after hostOps0_2 (after hostOps0_1 (after hostOps0 X)) (Proc.devRef .tc main_v6)
    = dstIdx (F := Ideal) (X (Proc.devRef .tc main_arg1)) :=
  (by unwritten : _ = _).trans ((by unwritten : _ = _).trans (ends_dst X))

/-- The weights after the whole prelude. -/
theorem prelude_weights : after hostOps0_2 (after hostOps0_1 (after hostOps0 X)) (Proc.devRef .tc main_v31)
    = weights (F := Ideal) (srcIdx (F := Ideal) (X (Proc.devRef .tc main_arg1))) (dstIdx (F := Ideal) (X (Proc.devRef .tc main_arg1))) := by
  refine (weights_stretch (after hostOps0_1 (after hostOps0 X))).trans ?_
  rw [prelude_dinv, show after hostOps0_1 (after hostOps0 X) (Proc.devRef .tc main_v3) = srcIdx (F := Ideal) (X (Proc.devRef .tc main_arg1))
      from (by unwritten : _ = _).trans (ends_src X),
    show after hostOps0_1 (after hostOps0 X) (Proc.devRef .tc main_v6) = dstIdx (F := Ideal) (X (Proc.devRef .tc main_arg1))
      from (by unwritten : _ = _).trans (ends_dst X)]
  rfl

/-- A layer's aggregation at 128 features: gather, weigh, add up at the targets, add the bias. -/
theorem agg_stretch1 : after hostOps1 X (Proc.devRef .tc main_v48)
    = agg128 (F := Ideal) (X (Proc.devRef .tc main_v32)) (X (Proc.devRef .tc main_arg3))
        (X (Proc.devRef .tc main_v3)) (X (Proc.devRef .tc main_v6)) (X (Proc.devRef .tc main_v31)) := by
  simp only [hostOps1]
  after_results_simp <;> rfl
theorem agg_stretch2 : after hostOps2 X (Proc.devRef .tc main_v66)
    = agg128 (F := Ideal) (X (Proc.devRef .tc main_v50)) (X (Proc.devRef .tc main_arg5))
        (X (Proc.devRef .tc main_v3)) (X (Proc.devRef .tc main_v6)) (X (Proc.devRef .tc main_v31)) := by
  simp only [hostOps2]
  after_results_simp <;> rfl

/-- The outlined rectifier. -/
theorem relu_stretch1 : after hostOps1_1 X (Proc.devRef .tc main_v49) = relu128 (F := Ideal) (X (Proc.devRef .tc main_v48)) := by
  simp only [hostOps1_1]
  after_results_simp <;> rfl
theorem relu_stretch2 : after hostOps2_1 X (Proc.devRef .tc main_v67) = relu128 (F := Ideal) (X (Proc.devRef .tc main_v66)) := by
  simp only [hostOps2_1]
  after_results_simp <;> rfl

/-- After the first region: aggregate, add the bias, rectify. -/
theorem layer1 : after hostOps1_1 (after hostOps1 X) (Proc.devRef .tc main_v49)
    = relu128 (F := Ideal) (agg128 (F := Ideal) (X (Proc.devRef .tc main_v32)) (X (Proc.devRef .tc main_arg3))
        (X (Proc.devRef .tc main_v3)) (X (Proc.devRef .tc main_v6)) (X (Proc.devRef .tc main_v31))) :=
  (relu_stretch1 (after hostOps1 X)).trans (congrArg (relu128 (F := Ideal)) (agg_stretch1 X))

/-- After the second region: the same with the second layer's bias. -/
theorem layer2 : after hostOps2_1 (after hostOps2 X) (Proc.devRef .tc main_v67)
    = relu128 (F := Ideal) (agg128 (F := Ideal) (X (Proc.devRef .tc main_v50)) (X (Proc.devRef .tc main_arg5))
        (X (Proc.devRef .tc main_v3)) (X (Proc.devRef .tc main_v6)) (X (Proc.devRef .tc main_v31))) :=
  (relu_stretch2 (after hostOps2 X)).trans (congrArg (relu128 (F := Ideal)) (agg_stretch2 X))

/-- After the third region: the aggregation at 40 features, no rectifier. -/
theorem layer3 : after hostOps3 X (Proc.devRef .tc main_v84)
    = agg40 (F := Ideal) (X (Proc.devRef .tc main_v68)) (X (Proc.devRef .tc main_arg7))
        (X (Proc.devRef .tc main_v3)) (X (Proc.devRef .tc main_v6)) (X (Proc.devRef .tc main_v31)) := by
  simp only [hostOps3]
  after_results_simp <;> rfl

end Stretches

/-! ## The three dense products -/

section Products
variable (X : Valuation τ sig (Elt Ideal))

theorem product1 : after denseOp1 X (Proc.devRef .tc main_v32)
    = dense1 (F := Ideal) (X (Proc.devRef .tc main_arg0)) (X (Proc.devRef .tc main_arg2)) := by
  simp only [denseOp1]
  after_results_simp <;> rfl
theorem product2 : after denseOp2 X (Proc.devRef .tc main_v50)
    = dense2 (F := Ideal) (X (Proc.devRef .tc main_v49)) (X (Proc.devRef .tc main_arg4)) := by
  simp only [denseOp2]
  after_results_simp <;> rfl
theorem product3 : after denseOp3 X (Proc.devRef .tc main_v68)
    = dense3 (F := Ideal) (X (Proc.devRef .tc main_v67)) (X (Proc.devRef .tc main_arg6)) := by
  simp only [denseOp3]
  after_results_simp <;> rfl

end Products

/-! ## The contents at the cuts -/

abbrev R0 (c : Dev nD) : Valuation τ sig (Elt Ideal) := launchContents m c
abbrev R3 (c : Dev nD) : Valuation τ sig (Elt Ideal) := after hostOps0_2 (after hostOps0_1 (after hostOps0 (R0 m c)))
abbrev R4 (c : Dev nD) : Valuation τ sig (Elt Ideal) := after denseOp1 (R3 m c)
abbrev R6 (c : Dev nD) : Valuation τ sig (Elt Ideal) := after hostOps1_1 (after hostOps1 (R4 m c))
abbrev R7 (c : Dev nD) : Valuation τ sig (Elt Ideal) := after denseOp2 (R6 m c)
abbrev R9 (c : Dev nD) : Valuation τ sig (Elt Ideal) := after hostOps2_1 (after hostOps2 (R7 m c))
abbrev R10 (c : Dev nD) : Valuation τ sig (Elt Ideal) := after denseOp3 (R9 m c)
abbrev R11 (c : Dev nD) : Valuation τ sig (Elt Ideal) := after hostOps3 (R10 m c)

/-- The fold of the whole list is the fold of its pieces in order. -/
theorem fold_cut (c : Dev nD) : after Cert.ReferenceIdeal.RunP.ops (launchContents m c) = R11 m c := by
  rw [ops_cut]
  simp only [Cert.LibAfter.after_append]

/-! ## What stays: the message ends, the weights and the parameter arrays -/

/-- Contents `X` hold the message ends and weights made from the launched edge list, and the launched parameter arrays
    of the layers still to come. -/
def Live (c : Dev nD) (X : Valuation τ sig (Elt Ideal)) : Prop :=
  X (Proc.devRef .tc main_v3) = srcIdx (F := Ideal) (m ((c.tc : Thread nD τ).loc main_arg1))
  ∧ X (Proc.devRef .tc main_v6) = dstIdx (F := Ideal) (m ((c.tc : Thread nD τ).loc main_arg1))
  ∧ X (Proc.devRef .tc main_v31) = weights (F := Ideal) (srcIdx (F := Ideal) (m ((c.tc : Thread nD τ).loc main_arg1))) (dstIdx (F := Ideal) (m ((c.tc : Thread nD τ).loc main_arg1)))
  ∧ X (Proc.devRef .tc main_arg3) = m ((c.tc : Thread nD τ).loc main_arg3)
  ∧ X (Proc.devRef .tc main_arg4) = m ((c.tc : Thread nD τ).loc main_arg4)
  ∧ X (Proc.devRef .tc main_arg5) = m ((c.tc : Thread nD τ).loc main_arg5)
  ∧ X (Proc.devRef .tc main_arg6) = m ((c.tc : Thread nD τ).loc main_arg6)
  ∧ X (Proc.devRef .tc main_arg7) = m ((c.tc : Thread nD τ).loc main_arg7)

theorem live3 (c : Dev nD) : Live m c (R3 m c) :=
  ⟨prelude_src (R0 m c), prelude_dst (R0 m c), prelude_weights (R0 m c),
   (by unwritten : _ = _).trans ((by unwritten : _ = _).trans (by unwritten)),
   (by unwritten : _ = _).trans ((by unwritten : _ = _).trans (by unwritten)),
   (by unwritten : _ = _).trans ((by unwritten : _ = _).trans (by unwritten)),
   (by unwritten : _ = _).trans ((by unwritten : _ = _).trans (by unwritten)),
   (by unwritten : _ = _).trans ((by unwritten : _ = _).trans (by unwritten))⟩

theorem x3 (c : Dev nD) : R3 m c (Proc.devRef .tc main_arg0) = m ((c.tc : Thread nD τ).loc main_arg0) :=
  (by unwritten : _ = _).trans ((by unwritten : _ = _).trans (by unwritten))
theorem w3 (c : Dev nD) : R3 m c (Proc.devRef .tc main_arg2) = m ((c.tc : Thread nD τ).loc main_arg2) :=
  (by unwritten : _ = _).trans ((by unwritten : _ = _).trans (by unwritten))

theorem live4 (c : Dev nD) : Live m c (R4 m c) := by
  obtain ⟨h1, h2, h3, h4, h5, h6, h7, h8⟩ := live3 m c
  exact ⟨(by unwritten : _ = _).trans h1, (by unwritten : _ = _).trans h2, (by unwritten : _ = _).trans h3, (by unwritten : _ = _).trans h4, (by unwritten : _ = _).trans h5, (by unwritten : _ = _).trans h6, (by unwritten : _ = _).trans h7, (by unwritten : _ = _).trans h8⟩

theorem live6 (c : Dev nD) : Live m c (R6 m c) := by
  obtain ⟨h1, h2, h3, h4, h5, h6, h7, h8⟩ := live4 m c
  exact ⟨(by unwritten : _ = _).trans ((by unwritten : _ = _).trans h1),
    (by unwritten : _ = _).trans ((by unwritten : _ = _).trans h2),
    (by unwritten : _ = _).trans ((by unwritten : _ = _).trans h3),
    (by unwritten : _ = _).trans ((by unwritten : _ = _).trans h4),
    (by unwritten : _ = _).trans ((by unwritten : _ = _).trans h5),
    (by unwritten : _ = _).trans ((by unwritten : _ = _).trans h6),
    (by unwritten : _ = _).trans ((by unwritten : _ = _).trans h7),
    (by unwritten : _ = _).trans ((by unwritten : _ = _).trans h8)⟩

theorem live7 (c : Dev nD) : Live m c (R7 m c) := by
  obtain ⟨h1, h2, h3, h4, h5, h6, h7, h8⟩ := live6 m c
  exact ⟨(by unwritten : _ = _).trans h1, (by unwritten : _ = _).trans h2, (by unwritten : _ = _).trans h3, (by unwritten : _ = _).trans h4, (by unwritten : _ = _).trans h5, (by unwritten : _ = _).trans h6, (by unwritten : _ = _).trans h7, (by unwritten : _ = _).trans h8⟩

theorem live9 (c : Dev nD) : Live m c (R9 m c) := by
  obtain ⟨h1, h2, h3, h4, h5, h6, h7, h8⟩ := live7 m c
  exact ⟨(by unwritten : _ = _).trans ((by unwritten : _ = _).trans h1),
    (by unwritten : _ = _).trans ((by unwritten : _ = _).trans h2),
    (by unwritten : _ = _).trans ((by unwritten : _ = _).trans h3),
    (by unwritten : _ = _).trans ((by unwritten : _ = _).trans h4),
    (by unwritten : _ = _).trans ((by unwritten : _ = _).trans h5),
    (by unwritten : _ = _).trans ((by unwritten : _ = _).trans h6),
    (by unwritten : _ = _).trans ((by unwritten : _ = _).trans h7),
    (by unwritten : _ = _).trans ((by unwritten : _ = _).trans h8)⟩

theorem live10 (c : Dev nD) : Live m c (R10 m c) := by
  obtain ⟨h1, h2, h3, h4, h5, h6, h7, h8⟩ := live9 m c
  exact ⟨(by unwritten : _ = _).trans h1, (by unwritten : _ = _).trans h2, (by unwritten : _ = _).trans h3, (by unwritten : _ = _).trans h4, (by unwritten : _ = _).trans h5, (by unwritten : _ = _).trans h6, (by unwritten : _ = _).trans h7, (by unwritten : _ = _).trans h8⟩

/-! ## The hidden features, layer by layer -/

theorem h1 (c : Dev nD) : R6 m c (Proc.devRef .tc main_v49)
    = relu128 (F := Ideal) (agg128 (F := Ideal) (dense1 (F := Ideal) (m ((c.tc : Thread nD τ).loc main_arg0)) (m ((c.tc : Thread nD τ).loc main_arg2)))
        (m ((c.tc : Thread nD τ).loc main_arg3)) (srcIdx (F := Ideal) (m ((c.tc : Thread nD τ).loc main_arg1))) (dstIdx (F := Ideal) (m ((c.tc : Thread nD τ).loc main_arg1)))
        (weights (F := Ideal) (srcIdx (F := Ideal) (m ((c.tc : Thread nD τ).loc main_arg1))) (dstIdx (F := Ideal) (m ((c.tc : Thread nD τ).loc main_arg1))))) := by
  obtain ⟨e1, e2, e3, e4, -, -, -, -⟩ := live4 m c
  refine (layer1 (R4 m c)).trans ?_
  have hd : R4 m c (Proc.devRef .tc main_v32) = dense1 (F := Ideal) (m ((c.tc : Thread nD τ).loc main_arg0)) (m ((c.tc : Thread nD τ).loc main_arg2)) := by
    refine (product1 (R3 m c)).trans ?_
    rw [x3, w3]
  rw [hd, e1, e2, e3, e4]

theorem h2 (c : Dev nD) : R9 m c (Proc.devRef .tc main_v67)
    = relu128 (F := Ideal) (agg128 (F := Ideal) (dense2 (F := Ideal) (R6 m c (Proc.devRef .tc main_v49)) (m ((c.tc : Thread nD τ).loc main_arg4)))
        (m ((c.tc : Thread nD τ).loc main_arg5)) (srcIdx (F := Ideal) (m ((c.tc : Thread nD τ).loc main_arg1))) (dstIdx (F := Ideal) (m ((c.tc : Thread nD τ).loc main_arg1)))
        (weights (F := Ideal) (srcIdx (F := Ideal) (m ((c.tc : Thread nD τ).loc main_arg1))) (dstIdx (F := Ideal) (m ((c.tc : Thread nD τ).loc main_arg1))))) := by
  obtain ⟨e1, e2, e3, -, -, e6, -, -⟩ := live7 m c
  obtain ⟨-, -, -, -, g5, -, -, -⟩ := live6 m c
  refine (layer2 (R7 m c)).trans ?_
  have hd : R7 m c (Proc.devRef .tc main_v50) = dense2 (F := Ideal) (R6 m c (Proc.devRef .tc main_v49)) (m ((c.tc : Thread nD τ).loc main_arg4)) := by
    refine (product2 (R6 m c)).trans ?_
    rw [g5]
  rw [hd, e1, e2, e3, e6]

/-- The result buffer at the end of the run is the network of the launched arguments. -/
theorem result (c : Dev nD) : after Cert.ReferenceIdeal.RunP.ops (launchContents m c) (Proc.devRef .tc main_v84)
    = Cert.Gcn.out (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  obtain ⟨e1, e2, e3, -, -, -, -, e8⟩ := live10 m c
  obtain ⟨-, -, -, -, -, -, g7, -⟩ := live9 m c
  rw [fold_cut]
  refine (layer3 (R10 m c)).trans ?_
  have hd : R10 m c (Proc.devRef .tc main_v68) = dense3 (F := Ideal) (R9 m c (Proc.devRef .tc main_v67)) (m ((c.tc : Thread nD τ).loc main_arg6)) := by
    refine (product3 (R9 m c)).trans ?_
    rw [g7]
  rw [hd, e1, e2, e3, e8, h2, h1]
  rfl

end Cert.ReferenceIdeal.Net

end
-- ==== Proof.lean ====
/-
  A three-layer graph convolution (100000 nodes, 1600000 edges plus one self-loop per node; features 500 → 128 → 128 → 40).

  Both programs compute, from the edge list, the ends s(j), d(j) of the 1700000 messages and their weights
  w(j) = deg(s(j))^(-1/2) · deg(d(j))^(-1/2); each layer maps node features h to
        v, q ↦ Σ_{j : d(j) = v} (h · W)(s(j), q) · w(j) + b(q),
  with a rectifier after the first two layers.  The reference evaluates each dense product h · W with the host's
  `dot_general`; the kernel's program evaluates it in a pipelined region over 20 blocks of 5000 rows, rounding the
  operands to bf16 and multiplying into a zero f32 accumulator.  At the ideal values the rounding is the identity and
  the product into the zero accumulator is the plain sum Σ_k h(p, k) · W(k, q), so each region leaves exactly the host's
  product of the arrays it found (modules Dense0, Dense1, Dense2, over LibMatProd); every other operation of the two
  programs is the same host operation applied to the same values.  So both result buffers end at the one function
  `Cert.Gcn.out` (module Stages) of the arguments: KernelStages walks the kernel program's buffer contents through its
  segments, RefStages walks the reference's operation list cut at its three products (RefCut), and the claim below puts
  the two runs (KernelRun, RefRun) side by side.  No finiteness of the inputs is used: no sum or product of extended
  reals is rearranged beyond the order of a finite sum.

  The frames of the two kernel programs are the generated ones; the reference's frame is its run with the result
  dropped; the idealization rewrote nothing, so `preserves` is trivial.
-/
import proofs.«129346_j59407987638622_1_alg».proof.Defs
import proofs.«129346_j59407987638622_1_alg».proof.Proof.Gen.Kernel
import proofs.«129346_j59407987638622_1_alg».proof.Proof.Gen.Kernel.Frame
import proofs.«129346_j59407987638622_1_alg».proof.Proof.Gen.KernelIdeal
import proofs.«129346_j59407987638622_1_alg».proof.Proof.Gen.KernelIdeal.Frame
import proofs.«129346_j59407987638622_1_alg».proof.Proof.Gen.ReferenceIdeal
import proofs.«129346_j59407987638622_1_alg».proof.Proof.Gen.Pre_finite_inputs
import proofs.«129346_j59407987638622_1_alg».proof.Proof.KernelRun
import proofs.«129346_j59407987638622_1_alg».proof.Proof.KernelStages
import proofs.«129346_j59407987638622_1_alg».proof.Proof.RefRun
import proofs.«129346_j59407987638622_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both runs end with the result buffer at `Cert.Gcn.out` of their arguments, and the arguments agree. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Net.result m ρ c), (h c).2⟩) (Cert.KernelIdeal.Run.run (F := Ideal) m ρ), ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7⟩ := hagree c
  refine (Cert.ReferenceIdeal.Net.result m' c).trans ?_
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
